-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512 .f32) (main_arg13 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_v48 main_v49 main_v50

def fn_part1 {F : FTy → Type} [FloatOps F] (main_arg4 : FVec F S512x128 .f32) (main_arg5 : FVec F S128 .f32) (main_arg6 : FVec F S512 .f32) (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x512 .f32) (main_arg1 : FVec F S16384x16384 .f32) (main_arg2 : FVec F S512x512 .f32) (main_arg3 : FVec F S512 .f32) (main_arg4 : FVec F S512x128 .f32) (main_arg5 : FVec F S128 .f32) (main_arg6 : FVec F S512 .f32) (main_arg7 : FVec F S512 .f32) (main_arg8 : FVec F S512 .f32) (main_arg9 : FVec F S512 .f32) (main_arg10 : FVec F S512 .f32) (main_arg11 : FVec F S512 .f32) (main_arg12 : FVec F S512 .f32) (main_arg13 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S1x128 : Shape := ⟨2, ![1, 128]⟩
abbrev S2048x512 : Shape := ⟨2, ![2048, 512]⟩
abbrev S128x16384 : Shape := ⟨2, ![128, 16384]⟩
abbrev S128x512 : Shape := ⟨2, ![128, 512]⟩
abbrev S16384x128 : Shape := ⟨2, ![16384, 128]⟩
abbrev S128x128 : Shape := ⟨2, ![128, 128]⟩

abbrev nBuf : Space → Nat
  | .hbm => 28
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x128, .f32⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S128x16384, .f32⟩
  | .local _ .vmem, ⟨9, _⟩ => ⟨S128x16384, .f32⟩
  | .local _ .vmem, ⟨10, _⟩ => ⟨S16384x512, .bf16⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S128x512, .f32⟩
  | .local _ .vmem, ⟨18, _⟩ => ⟨S128x512, .f32⟩
  | .local _ .vmem, ⟨19, _⟩ => ⟨S128x512, .bf16⟩
  | .local _ .vmem, ⟨20, _⟩ => ⟨S128x512, .bf16⟩
  | .local _ .vmem, ⟨21, _⟩ => ⟨S128x16384, .f32⟩
  | .local _ .vmem, ⟨22, _⟩ => ⟨S128x16384, .f32⟩
  | .local _ .vmem, ⟨23, _⟩ => ⟨S16384x512, .bf16⟩
  | .local _ .vmem, ⟨24, _⟩ => ⟨S512x128, .f32⟩
  | .local _ .vmem, ⟨25, _⟩ => ⟨S1x128, .f32⟩
  | .local _ .vmem, ⟨26, _⟩ => ⟨S128x128, .f32⟩
  | .local _ .vmem, ⟨27, _⟩ => ⟨S128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S512_S1x512 : S512.ShapeCasts S1x512
  shapeCasts_S128_S1x128 : S128.ShapeCasts S1x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S128x16384_S128x16384_0_0 : ∀ a, (![0, 0] : Fin 2 → Nat) a + S128x16384.size a ≤ S128x16384.size a
  h_S128x16384 : 0 < S128x16384.numel
  inb_S16384x512_S16384x512_0_0 : ∀ a, (![0, 0] : Fin 2 → Nat) a + S16384x512.size a ≤ S16384x512.size a
  h_S16384x512 : 0 < S16384x512.numel
  shapeCasts_S16384x512_S16384x512 : S16384x512.ShapeCasts S16384x512
  inb_S512x512_S512x512_0_0 : ∀ a, (![0, 0] : Fin 2 → Nat) a + S512x512.size a ≤ S512x512.size a
  h_S512x512 : 0 < S512x512.numel
  broadcasts_S1x512_S128x512 : S1x512.Broadcasts S128x512
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S128x16384_S16384x512_S128x512_1_0_0_1_n_n_wf : DotDims.WF S128x16384 S16384x512 S128x512 [1] [0] [0] [1] [] []
  dot_S128x512_S512x512_S128x512_1_0_0_1_n_n_wf : DotDims.WF S128x512 S512x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x512.size a
  hwx0_5 : ∀ i : grid0.Coords, EltTy.bits .bf16 = 32 ∨ (Rect.block (s := S16384x512) S2048x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x512.size a ≤ S16384x512.size a
  hwx1_1 : ∀ i : grid1.Coords, EltTy.bits .bf16 = 32 ∨ (Rect.block (s := S16384x512) S16384x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x512.size a ≤ S16384x512.size a
  hwx1_8 : ∀ i : grid1.Coords, EltTy.bits .f32 = 32 ∨ (Rect.block (s := S16384x512) S128x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x512.size a ≤ S16384x512.size a
  hwx1_9 : ∀ i : grid1.Coords, EltTy.bits .bf16 = 32 ∨ (Rect.block (s := S16384x512) S128x512.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x16384.size a ≤ S16384x16384.size a
  hwx2_0 : ∀ i : grid2.Coords, EltTy.bits .f32 = 32 ∨ (Rect.block (s := S16384x16384) S128x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x512.size a ≤ S16384x512.size a
  hwx2_1 : ∀ i : grid2.Coords, EltTy.bits .bf16 = 32 ∨ (Rect.block (s := S16384x512) S16384x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S16384x128.size a
  hwx2_4 : ∀ i : grid2.Coords, EltTy.bits .f32 = 32 ∨ (Rect.block (s := S16384x128) S128x128.size (cc2_transform_4 i) (hinb2_4 i)).WholeWords (EltTy.packing .f32)

variable [Facts₀]

def dot_S128x16384_S16384x512_S128x512_1_0_0_1_n_n : DotDims S128x16384 S16384x512 S128x512 where
  lhsContracting := [1]
  rhsContracting := [0]
  lhsNonContracting := [0]
  rhsNonContracting := [1]
  lhsBatch := []
  rhsBatch := []
  wf := dot_S128x16384_S16384x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S16384x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11_0) S128x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v11_1) S128x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg1) S128x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_1) S16384x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S128x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩
abbrev S1x512 : Shape := ⟨2, ![1, 512]⟩
abbrev S16384x128 : Shape := ⟨2, ![16384, 128]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S16384x512, .f32⟩
  | .hbm, ⟨44, _⟩ => ⟨S16384x512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S1x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x128, .f32⟩
  | .hbm, ⟨56, _⟩ => ⟨S1x128, .f32⟩
  | .hbm, ⟨57, _⟩ => ⟨S16384x128, .f32⟩
  | .hbm, ⟨58, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x16384_S16384x512_S16384x512_1_0_0_1_n_n_wf : DotDims.WF S16384x16384 S16384x512 S16384x512 [1] [0] [0] [1] [] []
  dot_S16384x512_S512x512_S16384x512_1_0_0_1_n_n_wf : DotDims.WF S16384x512 S512x512 S16384x512 [1] [0] [0] [1] [] []
  dot_S16384x512_S512x128_S16384x128_1_0_0_1_n_n_wf : DotDims.WF S16384x512 S512x128 S16384x128 [1] [0] [0] [1] [] []

variable [Facts₀]

def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.KernelRun.lean ====
/-
  The idealized kernel's run with every buffer of the program named at its end.

  The program is three launches in a row, each entered from the buffer contents the one before it left. Every weakly
  fair execution terminates, and at its end every buffer that outlives the launches holds the contents of the last
  boundary: the third launch's arrays at what its write-backs leave, everything else as the third launch found it.
  In particular the two results are read off that last boundary.
-/
import proofs.«128209_j69672959476237_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that outlives the launches ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The first result outlives the launches. -/
theorem v12_mem : (Proc.devRef .tc main_v12 : DevRef τ sig) ∈ Pipeline.ucRefs τ sig := mem_uc main_v12 (by decide)
/-- So does the second. -/
theorem v11_0_mem : (Proc.devRef .tc main_v11_0 : DevRef τ sig) ∈ Pipeline.ucRefs τ sig := mem_uc main_v11_0 (by decide)

end Cert.KernelIdeal.Run

end
-- ==== Proof.Spec.lean ====
/-
  Two rounds of neighbourhood aggregation over a dense adjacency matrix, as one function of the argument arrays,
  entry by entry on the extended reals.

  With A the n×n adjacency matrix, X the node features, and for a column f the running mean μ_f, the running variance
  σ²_f, the scale γ_f and the shift β_f, the normalisation of an entry v of column f is
      norm v = (v − μ_f) · (σ²_f + ε)^(-1/2) · γ_f + β_f .
  The hidden layer is  X₂ = norm₂ (max ((A · norm₁ X) · W₁ + b₁, 0))  and the output  X₁ = (A · X₂) · W₂ + b₂ ;
  an entry (r, q) of (A · Y) · W + b is  Σ_k (Σ_j A(r, j) · Y(j, k)) · W(k, q) + b_q , the inner sum over all n nodes.
-/
import Idealize.ShloMosaic.PureOps.Ideal
import Idealize.ShloMosaic.Lib.ValueIdx

noncomputable section

namespace Cert.TwoHop

open Idealize.ShloMosaic Idealize.ShloMosaic.ValueIdx

/-- An a×b matrix of extended reals, indexed as the programs index their rank-2 arrays. -/
abbrev Mat (a b : ℕ) : Type := (⟨2, ![a, b]⟩ : Shape).Idx → EReal

/-- A rank-1 array of extended reals as a function of its one coordinate. -/
def vec {n : ℕ} (x : (⟨1, ![n]⟩ : Shape).Idx → EReal) : Fin n → EReal := fun q => x (ix1 q)

/-- A one-row matrix of extended reals as a function of its column. -/
def row {n : ℕ} (x : (⟨2, ![1, n]⟩ : Shape).Idx → EReal) : Fin n → EReal := fun q => x (ix2 (0 : Fin 1) q)

/-- The variance offset ε: the one binary word both programs add to a running variance. -/
def eps : EReal := Ideal.ofBits .f32 0x3727C5AC#32

/-- The zero the rectifier compares against. -/
def zero : EReal := Ideal.ofBits .f32 0x00000000#32

/-- One entry normalised with its column's running statistics, then scaled and shifted. -/
def norm1 (v rm rv g b : EReal) : EReal := (v - rm) * Ideal.rsqrt (rv + eps) * g + b

/-- Entry (r, q) of (A · Y) · W + b. -/
def hop {n d e : ℕ} (a : Mat n n) (y : Mat n d) (w : Mat d e) (b : Fin e → EReal) (r : Fin n) (q : Fin e) : EReal :=
  (∑ k : Fin d, (∑ j : Fin n, a (ix2 r j) * y (ix2 j k)) * w (ix2 k q)) + b q

/-- Every column of the feature matrix normalised with that column's statistics. -/
def normed (x : Mat 16384 512) (g b rm rv : Fin 512 → EReal) : Mat 16384 512 :=
  fun i => norm1 (x i) (rm (i 1)) (rv (i 1)) (g (i 1)) (b (i 1))

theorem normed_apply (x : Mat 16384 512) (g b rm rv : Fin 512 → EReal) (r : Fin 16384) (f : Fin 512) :
    normed x g b rm rv (ix2 r f) = norm1 (x (ix2 r f)) (rm f) (rv f) (g f) (b f) := rfl

/-- The hidden layer: aggregate, map linearly, rectify, normalise. -/
def hidden (a : Mat 16384 16384) (y : Mat 16384 512) (w : Mat 512 512) (b g beta rm rv : Fin 512 → EReal) : Mat 16384 512 :=
  fun i => norm1 (max (hop a y w b (i 0) (i 1)) zero) (rm (i 1)) (rv (i 1)) (g (i 1)) (beta (i 1))

theorem hidden_apply (a : Mat 16384 16384) (y : Mat 16384 512) (w : Mat 512 512) (b g beta rm rv : Fin 512 → EReal)
    (r : Fin 16384) (q : Fin 512) :
    hidden a y w b g beta rm rv (ix2 r q) = norm1 (max (hop a y w b r q) zero) (rm q) (rv q) (g q) (beta q) := rfl

/-- The output layer: aggregate and map linearly. -/
def output (a : Mat 16384 16384) (y : Mat 16384 512) (w : Mat 512 128) (b : Fin 128 → EReal) : Mat 16384 128 :=
  fun i => hop a y w b (i 0) (i 1)

theorem output_apply (a : Mat 16384 16384) (y : Mat 16384 512) (w : Mat 512 128) (b : Fin 128 → EReal)
    (r : Fin 16384) (q : Fin 128) : output a y w b (ix2 r q) = hop a y w b r q := rfl

end Cert.TwoHop

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Payloads.lean ====
/-
  What each launch's body stores, read at one entry of its block, at the ideal values.

  The first body normalises a block of feature rows column by column. The second multiplies a block of 128 rows of the
  adjacency matrix with the whole normalised feature matrix (the sum runs over all 16384 nodes at once), multiplies the
  result with the weights, adds the bias, rectifies and normalises; it stores that block twice, once in each storage
  format, and a change of format is the identity on the extended reals. The third does the two products and adds its bias.
-/
import proofs.«128209_j69672959476237_1_alg».proof.Proof.Gen.KernelIdeal.Skeleton
import proofs.«128209_j69672959476237_1_alg».proof.Proof.Spec
import proofs.«128209_j69672959476237_1_alg».proof.Proof.LibDense
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.TwoHop

/-- Entry (p, q) of the first body's block: the feature normalised with column q's statistics. -/
theorem pay0_apply (v0 v6 v12 v16 : Vec Ideal S1x512 .f32) (v5 : Vec Ideal S2048x512 .f32) (p : Fin 2048) (q : Fin 512) :
    k0_pay1 v0 v5 v6 v12 v16 (ix2 p q)
      = norm1 (v5 (ix2 p q)) (v6 (ix2 0 q)) (v0 (ix2 0 q)) (v12 (ix2 0 q)) (v16 (ix2 0 q)) := by
  unfold k0_pay1 norm1 eps
  simp only [truncf_apply, addf_apply, mulf_apply, subf_apply, shapeCast_self, broadcastTo_1b_ab_apply, broadcast_apply]
  rfl

/-- A block of 128 adjacency rows times the whole feature matrix, at (a, c): the sum over all nodes. -/
theorem aggregate_apply (v0 : FVec Ideal S128x16384 .f32) (v2 : FVec Ideal S16384x512 .bf16) (a : Fin 128) (c : Fin 512) :
    matmul (F := Ideal) dot_S128x16384_S16384x512_S128x512_1_0_0_1_n_n none (truncf .bf16 v0 bitsLt_bf16_f32)
        v2 (constant S128x512 .f32 0x00000000#32) (ix2 a c)
      = ∑ j : Fin 16384, v0 (ix2 a j) * v2 (ix2 j c) := by
  unfold dot_S128x16384_S16384x512_S128x512_1_0_0_1_n_n
  rw [Cert.Dense.matmul_plain_apply]
  simp only [truncf_apply]

/-- Entry (p, q) of the second body's block. -/
theorem pay1_apply (v0 : Vec Ideal S128x16384 .f32) (v2 : Vec Ideal S16384x512 .bf16) (v6 : Vec Ideal S512x512 .f32)
    (v9 v15 v20 v26 v30 : Vec Ideal S1x512 .f32) (p : Fin 128) (q : Fin 512) :
    k1_pay1 v0 v2 v6 v9 v15 v20 v26 v30 (ix2 p q)
      = norm1 (max ((∑ k : Fin 512, (∑ j : Fin 16384, v0 (ix2 p j) * v2 (ix2 j k)) * v6 (ix2 k q)) + v9 (ix2 0 q)) zero)
          (v20 (ix2 0 q)) (v15 (ix2 0 q)) (v26 (ix2 0 q)) (v30 (ix2 0 q)) := by
  unfold k1_pay1 norm1 eps zero
  simp only [addf_apply, mulf_apply, subf_apply, maximumf_apply, shapeCast_self, broadcastTo_1b_ab_apply, broadcast_apply]
  unfold dot_S128x512_S512x512_S128x512_1_0_0_1_n_n
  rw [Cert.Dense.matmul_plain_apply]
  simp only [truncf_apply, aggregate_apply]
  rfl

/-- The same block stored in the shorter format holds the same extended reals. -/
theorem pay1b_apply (v0 : Vec Ideal S128x16384 .f32) (v2 : Vec Ideal S16384x512 .bf16) (v6 : Vec Ideal S512x512 .f32)
    (v9 v15 v20 v26 v30 : Vec Ideal S1x512 .f32) (i : S128x512.Idx) :
    k1_pay2 v0 v2 v6 v9 v15 v20 v26 v30 i = k1_pay1 v0 v2 v6 v9 v15 v20 v26 v30 i := rfl

/-- Entry (p, q) of the third body's block. -/
theorem pay2_apply (v0 : Vec Ideal S128x16384 .f32) (v2 : Vec Ideal S16384x512 .bf16) (v6 : Vec Ideal S512x128 .f32)
    (v9 : Vec Ideal S1x128 .f32) (p : Fin 128) (q : Fin 128) :
    k2_pay1 v0 v2 v6 v9 (ix2 p q)
      = (∑ k : Fin 512, (∑ j : Fin 16384, v0 (ix2 p j) * v2 (ix2 j k)) * v6 (ix2 k q)) + v9 (ix2 0 q) := by
  unfold k2_pay1
  simp only [addf_apply, shapeCast_self, broadcastTo_1b_ab_apply]
  unfold dot_S128x512_S512x128_S128x128_1_0_0_1_n_n
  rw [Cert.Dense.matmul_plain_apply]
  simp only [truncf_apply, aggregate_apply]

end Cert.KernelIdeal.Body

end
-- ==== Proof.Launch0.lean ====
/-
  The first launch: the array it writes ends holding the normalised features.

  Its grid has 8 points; point t reads rows 2048·t … 2048·t + 2047 of the feature matrix and the four one-row
  statistics, and writes the same rows of the output. So the block a point writes back is that block of ONE
  whole-array function of the arrays the launch found, and the 8 blocks tile the output.
-/
import proofs.«128209_j69672959476237_1_alg».proof.Proof.Gen.KernelIdeal.Frame
import proofs.«128209_j69672959476237_1_alg».proof.Proof.Payloads

set_option maxRecDepth 16384

noncomputable section

namespace Cert.KernelIdeal.Launch0

open Cert.KernelIdeal Cert.KernelIdeal.Gen Cert.TwoHop
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalised features, of the arrays as the launch finds them. -/
def G (c : Dev nD) : S16384x512.Idx → EReal :=
  normed (V c main_arg0) (row (V c main_v0)) (row (V c main_v1)) (row (V c main_v2)) (row (V c main_v3))

/-- The block index of every window at every point: the features and the output move down the rows with the point,
    the statistics stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An entry of the feature block at point t is the feature at row 2048·t + p. -/
theorem read_x (c : Dev nD) (t : Fin cfg0.N) (p : Fin 2048) (q : Fin 512) (hr : t.val * 2048 + p.val < 16384) :
    iblk0 V c 0 t (ix2 p q) = (V c main_arg0 : S16384x512.Idx → EReal) (ix2 ⟨t.val * 2048 + p.val, hr⟩ q) := by
  obtain ⟨e0, e1, -⟩ := idx_facts t
  show V c main_arg0 (((cfg0.win 0).blk t).view.emb (ix2 p q)) = _
  refine congrArg _ ?_
  funext a; apply Fin.ext
  match a with
  | ⟨0, _⟩ => show win0_0.index t (0 : Fin 2) * 2048 + 1 * p.val = t.val * 2048 + p.val; rw [e0]; omega
  | ⟨1, _⟩ => show win0_0.index t (1 : Fin 2) * 512 + 1 * q.val = q.val; rw [e1]; omega

/-- The scale row's block at any point is the row. -/
theorem read_g (c : Dev nD) (t : Fin cfg0.N) (q : Fin 512) :
    iblk0 V c 1 t (ix2 0 q) = (V c main_v0 : S1x512.Idx → EReal) (ix2 0 q) := by
  obtain ⟨-, -, e0, e1, -⟩ := idx_facts t
  show V c main_v0 (((cfg0.win 1).blk t).view.emb (ix2 0 q)) = _
  refine congrArg _ ?_
  funext a; apply Fin.ext
  match a with
  | ⟨0, _⟩ => show win0_1.index t (0 : Fin 2) * 1 + 1 * 0 = 0; rw [e0]
  | ⟨1, _⟩ => show win0_1.index t (1 : Fin 2) * 512 + 1 * q.val = q.val; rw [e1]; omega

/-- The shift row's block at any point is the row. -/
theorem read_b (c : Dev nD) (t : Fin cfg0.N) (q : Fin 512) :
    iblk0 V c 2 t (ix2 0 q) = (V c main_v1 : S1x512.Idx → EReal) (ix2 0 q) := by
  obtain ⟨-, -, -, -, e0, e1, -⟩ := idx_facts t
  show V c main_v1 (((cfg0.win 2).blk t).view.emb (ix2 0 q)) = _
  refine congrArg _ ?_
  funext a; apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-- The mean row's block at any point is the row. -/
theorem read_rm (c : Dev nD) (t : Fin cfg0.N) (q : Fin 512) :
    iblk0 V c 3 t (ix2 0 q) = (V c main_v2 : S1x512.Idx → EReal) (ix2 0 q) := by
  obtain ⟨-, -, -, -, -, -, e0, e1, -⟩ := idx_facts t
  show V c main_v2 (((cfg0.win 3).blk t).view.emb (ix2 0 q)) = _
  refine congrArg _ ?_
  funext a; apply Fin.ext
  match a with
  | ⟨0, _⟩ => show win0_3.index t (0 : Fin 2) * 1 + 1 * 0 = 0; rw [e0]
  | ⟨1, _⟩ => show win0_3.index t (1 : Fin 2) * 512 + 1 * q.val = q.val; rw [e1]; omega

/-- The variance row's block at any point is the row. -/
theorem read_rv (c : Dev nD) (t : Fin cfg0.N) (q : Fin 512) :
    iblk0 V c 4 t (ix2 0 q) = (V c main_v3 : S1x512.Idx → EReal) (ix2 0 q) := by
  obtain ⟨-, -, -, -, -, -, -, -, e0, e1, -⟩ := idx_facts t
  show V c main_v3 (((cfg0.win 4).blk t).view.emb (ix2 0 q)) = _
  refine congrArg _ ?_
  funext a; apply Fin.ext
  match a with
  | ⟨0, _⟩ => show win0_4.index t (0 : Fin 2) * 1 + 1 * 0 = 0; rw [e0]
  | ⟨1, _⟩ => show win0_4.index t (1 : Fin 2) * 512 + 1 * q.val = q.val; rw [e1]; omega

/-- What point t writes back is block t of the normalised features. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S1x512) hz, View.ld_unit_zero (S := S2048x512) hz]
  funext j
  obtain ⟨p, q, rfl⟩ : ∃ (p : Fin 2048) (q : Fin 512), j = ix2 p q := ⟨j 0, j 1, eq_ix2 j⟩
  have ht : t.val < 8 := lt_of_lt_of_eq t.isLt N_0
  have hr : t.val * 2048 + p.val < 16384 := by have := p.isLt; omega
  obtain ⟨-, -, -, -, -, -, -, -, -, -, e0, e1⟩ := idx_facts t
  have he : ((cfg0.win 5).blk t).view.emb (ix2 p q) = ix2 ⟨t.val * 2048 + p.val, hr⟩ q := by
    funext a; apply Fin.ext
    match a with
    | ⟨0, _⟩ => show win0_5.index t (0 : Fin 2) * 2048 + 1 * p.val = t.val * 2048 + p.val; rw [e0]; omega
    | ⟨1, _⟩ => show win0_5.index t (1 : Fin 2) * 512 + 1 * q.val = q.val; rw [e1]; omega
  show k0_pay1 (iblk0 V c 4 t) (iblk0 V c 0 t) (iblk0 V c 3 t) (iblk0 V c 1 t) (iblk0 V c 2 t) (ix2 p q)
    = G V c (((cfg0.win 5).blk t).view.emb (ix2 p q))
  rw [he]
  refine (Body.pay0_apply _ _ _ _ _ p q).trans ?_
  rw [read_x V c t p q hr, read_g V c t q, read_b V c t q, read_rm V c t q, read_rv V c t q]
  rfl

/-- An index of the output is in point t's block iff each coordinate is in the block's range on its axis. -/
theorem mem_blk (t : Fin cfg0.N) (i : S16384x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v10).slice (win0_5.rect t)).set ↔ _
  rw [View.set_slice_whole, Rect.mem_set_unit]
  exact Iff.rfl

/-- Row r of the output is written by point r / 2048. -/
theorem cover (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; rw [e0, ht]; omega
  | ⟨1, _⟩ => show win0_5.index t (1 : Fin 2) * 512 ≤ (i 1).val ∧ (i 1).val < win0_5.index t (1 : Fin 2) * 512 + 512; rw [e1]; omega

/-- The output array after the launch: the normalised features. -/
theorem final (c : Dev nD) : (dat0 V c).arrAt 5 cfg0.N = G V c :=
  (dat0 V c).arrAt_eq_of_cover 5 (G V c) (fun t _ => flushed_eq V c t) (cover)

end Cert.KernelIdeal.Launch0

end
-- ==== Proof.Launch1.lean ====
/-
  The second launch: both arrays it writes end holding the hidden layer.

  Its grid has 128 points; point t reads rows 128·t … 128·t + 127 of the adjacency matrix and, whole, the normalised
  features, the weights, the bias and the four one-row statistics, and writes the same rows of both outputs. So the
  block a point writes back is that block of ONE whole-array function of the arrays the launch found, and the 128
  blocks tile each output. The two outputs differ only in their storage format, which is the identity on the
  extended reals.
-/
import proofs.«128209_j69672959476237_1_alg».proof.Proof.Gen.KernelIdeal.Frame
import proofs.«128209_j69672959476237_1_alg».proof.Proof.Payloads

set_option maxRecDepth 16384

noncomputable section

namespace Cert.KernelIdeal.Launch1

open Cert.KernelIdeal Cert.KernelIdeal.Gen Cert.TwoHop
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden layer, of the arrays as the launch finds them. -/
def G (c : Dev nD) : S16384x512.Idx → EReal :=
  hidden (V c main_arg1) (V c main_v10) (V c main_arg2) (row (V c main_v8)) (row (V c main_v4)) (row (V c main_v5))
    (row (V c main_v6)) (row (V c main_v7))

/-- The adjacency window and the two outputs move down the rows with the point. -/
theorem idx_rows : ∀ t : Fin cfg1.N,
    win1_0.index t (0 : Fin 2) = t.val ∧ win1_0.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- An entry of the adjacency block at point t is the adjacency of row 128·t + p. -/
theorem read_a (c : Dev nD) (t : Fin cfg1.N) (p : Fin 128) (hr : t.val * 128 + p.val < 16384) (j : Fin 16384) :
    iblk1 V c 0 t (ix2 p j) = (V c main_arg1 : S16384x16384.Idx → EReal) (ix2 ⟨t.val * 128 + p.val, hr⟩ j) := by
  obtain ⟨e0, e1, -⟩ := idx_rows t
  show V c main_arg1 (((cfg1.win 0).blk t).view.emb (ix2 p j)) = _
  refine congrArg _ ?_
  funext a; apply Fin.ext
  match a with
  | ⟨0, _⟩ => show win1_0.index t (0 : Fin 2) * 128 + 1 * p.val = t.val * 128 + p.val; rw [e0]; omega
  | ⟨1, _⟩ => show win1_0.index t (1 : Fin 2) * 16384 + 1 * j.val = j.val; rw [e1]; omega

/-- The feature window stays: its block at any point is the whole array. -/
theorem idx_1 : ∀ t : Fin cfg1.N, win1_1.index t (0 : Fin 2) = 0 ∧ win1_1.index t (1 : Fin 2) = 0 :=
  (by decide +kernel : ∀ t : Fin grid1.N, _)

theorem blk_1 (c : Dev nD) (t : Fin cfg1.N) : iblk1 V c 1 t = (V c main_v10 : S16384x512.Idx → EReal) := by
  obtain ⟨e0, e1⟩ := idx_1 t
  funext j
  show V c main_v10 (((cfg1.win 1).blk t).view.emb j) = V c main_v10 j
  refine congrArg _ ?_
  funext a; apply Fin.ext
  match a with
  | ⟨0, _⟩ => show win1_1.index t (0 : Fin 2) * 16384 + 1 * (j 0).val = (j 0).val; rw [e0]; omega
  | ⟨1, _⟩ => show win1_1.index t (1 : Fin 2) * 512 + 1 * (j 1).val = (j 1).val; rw [e1]; omega

/-- The weight window stays. -/
theorem idx_2 : ∀ t : Fin cfg1.N, win1_2.index t (0 : Fin 2) = 0 ∧ win1_2.index t (1 : Fin 2) = 0 :=
  (by decide +kernel : ∀ t : Fin grid1.N, _)

theorem blk_2 (c : Dev nD) (t : Fin cfg1.N) : iblk1 V c 2 t = (V c main_arg2 : S512x512.Idx → EReal) := by
  obtain ⟨e0, e1⟩ := idx_2 t
  funext j
  show V c main_arg2 (((cfg1.win 2).blk t).view.emb j) = V c main_arg2 j
  refine congrArg _ ?_
  funext a; apply Fin.ext
  match a with
  | ⟨0, _⟩ => show win1_2.index t (0 : Fin 2) * 512 + 1 * (j 0).val = (j 0).val; rw [e0]; omega
  | ⟨1, _⟩ => show win1_2.index t (1 : Fin 2) * 512 + 1 * (j 1).val = (j 1).val; rw [e1]; omega

/-- The bias row stays. -/
theorem idx_3 : ∀ t : Fin cfg1.N, win1_3.index t (0 : Fin 2) = 0 ∧ win1_3.index t (1 : Fin 2) = 0 :=
  (by decide +kernel : ∀ t : Fin grid1.N, _)

theorem blk_3 (c : Dev nD) (t : Fin cfg1.N) : iblk1 V c 3 t = (V c main_v8 : S1x512.Idx → EReal) := by
  obtain ⟨e0, e1⟩ := idx_3 t
  funext j
  show V c main_v8 (((cfg1.win 3).blk t).view.emb j) = V c main_v8 j
  refine congrArg _ ?_
  funext a; apply Fin.ext
  match a with
  | ⟨0, _⟩ => show win1_3.index t (0 : Fin 2) * 1 + 1 * (j 0).val = (j 0).val; rw [e0]; omega
  | ⟨1, _⟩ => show win1_3.index t (1 : Fin 2) * 512 + 1 * (j 1).val = (j 1).val; rw [e1]; omega

/-- The scale row stays. -/
theorem idx_4 : ∀ t : Fin cfg1.N, win1_4.index t (0 : Fin 2) = 0 ∧ win1_4.index t (1 : Fin 2) = 0 :=
  (by decide +kernel : ∀ t : Fin grid1.N, _)

theorem blk_4 (c : Dev nD) (t : Fin cfg1.N) : iblk1 V c 4 t = (V c main_v4 : S1x512.Idx → EReal) := by
  obtain ⟨e0, e1⟩ := idx_4 t
  funext j
  show V c main_v4 (((cfg1.win 4).blk t).view.emb j) = V c main_v4 j
  refine congrArg _ ?_
  funext a; apply Fin.ext
  match a with
  | ⟨0, _⟩ => show win1_4.index t (0 : Fin 2) * 1 + 1 * (j 0).val = (j 0).val; rw [e0]; omega
  | ⟨1, _⟩ => show win1_4.index t (1 : Fin 2) * 512 + 1 * (j 1).val = (j 1).val; rw [e1]; omega

/-- The shift row stays. -/
theorem idx_5 : ∀ t : Fin cfg1.N, win1_5.index t (0 : Fin 2) = 0 ∧ win1_5.index t (1 : Fin 2) = 0 :=
  (by decide +kernel : ∀ t : Fin grid1.N, _)

theorem blk_5 (c : Dev nD) (t : Fin cfg1.N) : iblk1 V c 5 t = (V c main_v5 : S1x512.Idx → EReal) := by
  obtain ⟨e0, e1⟩ := idx_5 t
  funext j
  show V c main_v5 (((cfg1.win 5).blk t).view.emb j) = V c main_v5 j
  refine congrArg _ ?_
  funext a; apply Fin.ext
  match a with
  | ⟨0, _⟩ => show win1_5.index t (0 : Fin 2) * 1 + 1 * (j 0).val = (j 0).val; rw [e0]; omega
  | ⟨1, _⟩ => show win1_5.index t (1 : Fin 2) * 512 + 1 * (j 1).val = (j 1).val; rw [e1]; omega

/-- The mean row stays. -/
theorem idx_6 : ∀ t : Fin cfg1.N, win1_6.index t (0 : Fin 2) = 0 ∧ win1_6.index t (1 : Fin 2) = 0 :=
  (by decide +kernel : ∀ t : Fin grid1.N, _)

theorem blk_6 (c : Dev nD) (t : Fin cfg1.N) : iblk1 V c 6 t = (V c main_v6 : S1x512.Idx → EReal) := by
  obtain ⟨e0, e1⟩ := idx_6 t
  funext j
  show V c main_v6 (((cfg1.win 6).blk t).view.emb j) = V c main_v6 j
  refine congrArg _ ?_
  funext a; apply Fin.ext
  match a with
  | ⟨0, _⟩ => show win1_6.index t (0 : Fin 2) * 1 + 1 * (j 0).val = (j 0).val; rw [e0]; omega
  | ⟨1, _⟩ => show win1_6.index t (1 : Fin 2) * 512 + 1 * (j 1).val = (j 1).val; rw [e1]; omega

/-- The variance row stays. -/
theorem idx_7 : ∀ t : Fin cfg1.N, win1_7.index t (0 : Fin 2) = 0 ∧ win1_7.index t (1 : Fin 2) = 0 :=
  (by decide +kernel : ∀ t : Fin grid1.N, _)

theorem blk_7 (c : Dev nD) (t : Fin cfg1.N) : iblk1 V c 7 t = (V c main_v7 : S1x512.Idx → EReal) := by
  obtain ⟨e0, e1⟩ := idx_7 t
  funext j
  show V c main_v7 (((cfg1.win 7).blk t).view.emb j) = V c main_v7 j
  refine congrArg _ ?_
  funext a; apply Fin.ext
  match a with
  | ⟨0, _⟩ => show win1_7.index t (0 : Fin 2) * 1 + 1 * (j 0).val = (j 0).val; rw [e0]; omega
  | ⟨1, _⟩ => show win1_7.index t (1 : Fin 2) * 512 + 1 * (j 1).val = (j 1).val; rw [e1]; omega

/-- Entry (p, q) of what the body computes at point t is entry (128·t + p, q) of the hidden layer. -/
theorem block_eq (c : Dev nD) (t : Fin cfg1.N) (p : Fin 128) (q : Fin 512) (hr : t.val * 128 + p.val < 16384) :
    k1_pay1 (iblk1 V c 0 t) (iblk1 V c 1 t) (iblk1 V c 2 t) (iblk1 V c 3 t) (iblk1 V c 7 t) (iblk1 V c 6 t) (iblk1 V c 4 t)
        (iblk1 V c 5 t) (ix2 p q)
      = G V c (ix2 ⟨t.val * 128 + p.val, hr⟩ q) := by
  refine (Body.pay1_apply _ _ _ _ _ _ _ _ p q).trans ?_
  rw [blk_1 V c t, blk_2 V c t, blk_3 V c t, blk_4 V c t, blk_5 V c t, blk_6 V c t, blk_7 V c t]
  simp only [read_a V c t p hr]
  rfl

/-- What point t writes back to the first output is block t of the hidden layer. -/
theorem flushed8_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S1x512) hz, View.ld_unit_zero (S := S128x16384) hz, View.ld_unit_zero (S := S16384x512) hz,
    View.ld_unit_zero (S := S512x512) hz]
  funext j
  obtain ⟨p, q, rfl⟩ : ∃ (p : Fin 128) (q : Fin 512), j = ix2 p q := ⟨j 0, j 1, eq_ix2 j⟩
  have ht : t.val < 128 := lt_of_lt_of_eq t.isLt N_1
  have hr : t.val * 128 + p.val < 16384 := by have := p.isLt; omega
  obtain ⟨-, -, e0, e1, -⟩ := idx_rows t
  have he : ((cfg1.win 8).blk t).view.emb (ix2 p q) = ix2 ⟨t.val * 128 + p.val, hr⟩ q := by
    funext a; apply Fin.ext
    match a with
    | ⟨0, _⟩ => show win1_8.index t (0 : Fin 2) * 128 + 1 * p.val = t.val * 128 + p.val; rw [e0]; omega
    | ⟨1, _⟩ => show win1_8.index t (1 : Fin 2) * 512 + 1 * q.val = q.val; rw [e1]; omega
  show k1_pay1 (iblk1 V c 0 t) (iblk1 V c 1 t) (iblk1 V c 2 t) (iblk1 V c 3 t) (iblk1 V c 7 t) (iblk1 V c 6 t) (iblk1 V c 4 t)
      (iblk1 V c 5 t) (ix2 p q) = G V c (((cfg1.win 8).blk t).view.emb (ix2 p q))
  rw [he]
  exact block_eq V c t p q hr

/-- What point t writes back to the second output is the same block. -/
theorem flushed9_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S1x512) hz, View.ld_unit_zero (S := S128x16384) hz, View.ld_unit_zero (S := S16384x512) hz,
    View.ld_unit_zero (S := S512x512) hz]
  funext j
  obtain ⟨p, q, rfl⟩ : ∃ (p : Fin 128) (q : Fin 512), j = ix2 p q := ⟨j 0, j 1, eq_ix2 j⟩
  have ht : t.val < 128 := lt_of_lt_of_eq t.isLt N_1
  have hr : t.val * 128 + p.val < 16384 := by have := p.isLt; omega
  obtain ⟨-, -, -, -, e0, e1⟩ := idx_rows t
  have he : ((cfg1.win 9).blk t).view.emb (ix2 p q) = ix2 ⟨t.val * 128 + p.val, hr⟩ q := by
    funext a; apply Fin.ext
    match a with
    | ⟨0, _⟩ => show win1_9.index t (0 : Fin 2) * 128 + 1 * p.val = t.val * 128 + p.val; rw [e0]; omega
    | ⟨1, _⟩ => show win1_9.index t (1 : Fin 2) * 512 + 1 * q.val = q.val; rw [e1]; omega
  show k1_pay2 (iblk1 V c 0 t) (iblk1 V c 1 t) (iblk1 V c 2 t) (iblk1 V c 3 t) (iblk1 V c 7 t) (iblk1 V c 6 t) (iblk1 V c 4 t)
      (iblk1 V c 5 t) (ix2 p q) = G V c (((cfg1.win 9).blk t).view.emb (ix2 p q))
  rw [he, Body.pay1b_apply]
  exact block_eq V c t p q hr

/-- An index of the first output is in point t's block iff each coordinate is in the block's range on its axis. -/
theorem mem_blk8 (t : Fin cfg1.N) (i : S16384x512.Idx) :
    i ∈ ((cfg1.win 8).blk t).view.set ↔ ∀ a : Fin 2, win1_8.index t a * S128x512.size a ≤ (i a).val ∧ (i a).val < win1_8.index t a * S128x512.size a + S128x512.size a := by
  show i ∈ ((View.whole main_v11_0).slice (win1_8.rect t)).set ↔ _
  rw [View.set_slice_whole, Rect.mem_set_unit]
  exact Iff.rfl

/-- The same for the second output. -/
theorem mem_blk9 (t : Fin cfg1.N) (i : S16384x512.Idx) :
    i ∈ ((cfg1.win 9).blk t).view.set ↔ ∀ a : Fin 2, win1_9.index t a * S128x512.size a ≤ (i a).val ∧ (i a).val < win1_9.index t a * S128x512.size a + S128x512.size a := by
  show i ∈ ((View.whole main_v11_1).slice (win1_9.rect t)).set ↔ _
  rw [View.set_slice_whole, Rect.mem_set_unit]
  exact Iff.rfl

/-- Row r of the first output is written by point r / 128. -/
theorem cover8 (i : S16384x512.Idx) : ∃ t : Fin cfg1.N, (cfg1.win 8).flush t = true ∧ i ∈ ((cfg1.win 8).blk t).view.set := by
  have hi0 : (i 0).val < 16384 := (i 0).isLt
  have hi1 : (i 1).val < 512 := (i 1).isLt
  have hN : cfg1.N = 128 := N_1
  obtain ⟨t, ht⟩ : ∃ t : Fin cfg1.N, t.val = (i 0).val / 128 := ⟨⟨(i 0).val / 128, by rw [hN]; omega⟩, rfl⟩
  obtain ⟨-, -, e0, e1, -⟩ := idx_rows t
  refine ⟨t, flush1_8 t, ?_⟩
  rw [mem_blk8]
  intro a
  match a with
  | ⟨0, _⟩ => show win1_8.index t (0 : Fin 2) * 128 ≤ (i 0).val ∧ (i 0).val < win1_8.index t (0 : Fin 2) * 128 + 128; rw [e0, ht]; omega
  | ⟨1, _⟩ => show win1_8.index t (1 : Fin 2) * 512 ≤ (i 1).val ∧ (i 1).val < win1_8.index t (1 : Fin 2) * 512 + 512; rw [e1]; omega

/-- Row r of the second output is written by point r / 128. -/
theorem cover9 (i : S16384x512.Idx) : ∃ t : Fin cfg1.N, (cfg1.win 9).flush t = true ∧ i ∈ ((cfg1.win 9).blk t).view.set := by
  have hi0 : (i 0).val < 16384 := (i 0).isLt
  have hi1 : (i 1).val < 512 := (i 1).isLt
  have hN : cfg1.N = 128 := N_1
  obtain ⟨t, ht⟩ : ∃ t : Fin cfg1.N, t.val = (i 0).val / 128 := ⟨⟨(i 0).val / 128, by rw [hN]; omega⟩, rfl⟩
  obtain ⟨-, -, -, -, e0, e1⟩ := idx_rows t
  refine ⟨t, flush1_9 t, ?_⟩
  rw [mem_blk9]
  intro a
  match a with
  | ⟨0, _⟩ => show win1_9.index t (0 : Fin 2) * 128 ≤ (i 0).val ∧ (i 0).val < win1_9.index t (0 : Fin 2) * 128 + 128; rw [e0, ht]; omega
  | ⟨1, _⟩ => show win1_9.index t (1 : Fin 2) * 512 ≤ (i 1).val ∧ (i 1).val < win1_9.index t (1 : Fin 2) * 512 + 512; rw [e1]; omega

/-- The first output after the launch: the hidden layer. -/
theorem final8 (c : Dev nD) : (dat1 V c).arrAt 8 cfg1.N = G V c :=
  (dat1 V c).arrAt_eq_of_cover 8 (G V c) (fun t _ => flushed8_eq V c t) (cover8)

/-- The second output after the launch: the hidden layer again. -/
theorem final9 (c : Dev nD) : (dat1 V c).arrAt 9 cfg1.N = G V c :=
  (dat1 V c).arrAt_eq_of_cover 9 (G V c) (fun t _ => flushed9_eq V c t) (cover9)

end Cert.KernelIdeal.Launch1

end
-- ==== Proof.Launch2.lean ====
/-
  The third launch: the array it writes ends holding the output layer.

  Its grid has 128 points; point t reads rows 128·t … 128·t + 127 of the adjacency matrix and, whole, the hidden layer,
  the weights and the bias, and writes the same rows of the output. So the block a point writes back is that block of
  ONE whole-array function of the arrays the launch found, and the 128 blocks tile the output.
-/
import proofs.«128209_j69672959476237_1_alg».proof.Proof.Gen.KernelIdeal.Frame
import proofs.«128209_j69672959476237_1_alg».proof.Proof.Payloads

set_option maxRecDepth 16384

noncomputable section

namespace Cert.KernelIdeal.Launch2

open Cert.KernelIdeal Cert.KernelIdeal.Gen Cert.TwoHop
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output layer, of the arrays as the launch finds them. -/
def G (c : Dev nD) : S16384x128.Idx → EReal :=
  output (V c main_arg1) (V c main_v11_1) (V c main_arg4) (row (V c main_v9))

/-- The adjacency window and the output move down the rows with the point. -/
theorem idx_rows : ∀ t : Fin cfg2.N,
    win2_0.index t (0 : Fin 2) = t.val ∧ win2_0.index t (1 : Fin 2) = 0
    ∧ win2_4.index t (0 : Fin 2) = t.val ∧ win2_4.index t (1 : Fin 2) = 0 :=
  (by decide +kernel : ∀ t : Fin grid2.N, _)

/-- An entry of the adjacency block at point t is the adjacency of row 128·t + p. -/
theorem read_a (c : Dev nD) (t : Fin cfg2.N) (p : Fin 128) (hr : t.val * 128 + p.val < 16384) (j : Fin 16384) :
    iblk2 V c 0 t (ix2 p j) = (V c main_arg1 : S16384x16384.Idx → EReal) (ix2 ⟨t.val * 128 + p.val, hr⟩ j) := by
  obtain ⟨e0, e1, -⟩ := idx_rows t
  show V c main_arg1 (((cfg2.win 0).blk t).view.emb (ix2 p j)) = _
  refine congrArg _ ?_
  funext a; apply Fin.ext
  match a with
  | ⟨0, _⟩ => show win2_0.index t (0 : Fin 2) * 128 + 1 * p.val = t.val * 128 + p.val; rw [e0]; omega
  | ⟨1, _⟩ => show win2_0.index t (1 : Fin 2) * 16384 + 1 * j.val = j.val; rw [e1]; omega

/-- The hidden-layer window stays: its block at any point is the whole array. -/
theorem idx_1 : ∀ t : Fin cfg2.N, win2_1.index t (0 : Fin 2) = 0 ∧ win2_1.index t (1 : Fin 2) = 0 :=
  (by decide +kernel : ∀ t : Fin grid2.N, _)

theorem blk_1 (c : Dev nD) (t : Fin cfg2.N) : iblk2 V c 1 t = (V c main_v11_1 : S16384x512.Idx → EReal) := by
  obtain ⟨e0, e1⟩ := idx_1 t
  funext j
  show V c main_v11_1 (((cfg2.win 1).blk t).view.emb j) = V c main_v11_1 j
  refine congrArg _ ?_
  funext a; apply Fin.ext
  match a with
  | ⟨0, _⟩ => show win2_1.index t (0 : Fin 2) * 16384 + 1 * (j 0).val = (j 0).val; rw [e0]; omega
  | ⟨1, _⟩ => show win2_1.index t (1 : Fin 2) * 512 + 1 * (j 1).val = (j 1).val; rw [e1]; omega

/-- The weight window stays. -/
theorem idx_2 : ∀ t : Fin cfg2.N, win2_2.index t (0 : Fin 2) = 0 ∧ win2_2.index t (1 : Fin 2) = 0 :=
  (by decide +kernel : ∀ t : Fin grid2.N, _)

theorem blk_2 (c : Dev nD) (t : Fin cfg2.N) : iblk2 V c 2 t = (V c main_arg4 : S512x128.Idx → EReal) := by
  obtain ⟨e0, e1⟩ := idx_2 t
  funext j
  show V c main_arg4 (((cfg2.win 2).blk t).view.emb j) = V c main_arg4 j
  refine congrArg _ ?_
  funext a; apply Fin.ext
  match a with
  | ⟨0, _⟩ => show win2_2.index t (0 : Fin 2) * 512 + 1 * (j 0).val = (j 0).val; rw [e0]; omega
  | ⟨1, _⟩ => show win2_2.index t (1 : Fin 2) * 128 + 1 * (j 1).val = (j 1).val; rw [e1]; omega

/-- The bias row stays. -/
theorem idx_3 : ∀ t : Fin cfg2.N, win2_3.index t (0 : Fin 2) = 0 ∧ win2_3.index t (1 : Fin 2) = 0 :=
  (by decide +kernel : ∀ t : Fin grid2.N, _)

theorem blk_3 (c : Dev nD) (t : Fin cfg2.N) : iblk2 V c 3 t = (V c main_v9 : S1x128.Idx → EReal) := by
  obtain ⟨e0, e1⟩ := idx_3 t
  funext j
  show V c main_v9 (((cfg2.win 3).blk t).view.emb j) = V c main_v9 j
  refine congrArg _ ?_
  funext a; apply Fin.ext
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- What point t writes back is block t of the output layer. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S1x128) hz, View.ld_unit_zero (S := S128x16384) hz, View.ld_unit_zero (S := S16384x512) hz,
    View.ld_unit_zero (S := S512x128) hz]
  funext j
  obtain ⟨p, q, rfl⟩ : ∃ (p : Fin 128) (q : Fin 128), j = ix2 p q := ⟨j 0, j 1, eq_ix2 j⟩
  have ht : t.val < 128 := lt_of_lt_of_eq t.isLt N_2
  have hr : t.val * 128 + p.val < 16384 := by have := p.isLt; omega
  obtain ⟨-, -, e0, e1⟩ := idx_rows t
  have he : ((cfg2.win 4).blk t).view.emb (ix2 p q) = ix2 ⟨t.val * 128 + p.val, hr⟩ q := by
    funext a; apply Fin.ext
    match a with
    | ⟨0, _⟩ => show win2_4.index t (0 : Fin 2) * 128 + 1 * p.val = t.val * 128 + p.val; rw [e0]; omega
    | ⟨1, _⟩ => show win2_4.index t (1 : Fin 2) * 128 + 1 * q.val = q.val; rw [e1]; omega
  show k2_pay1 (iblk2 V c 0 t) (iblk2 V c 1 t) (iblk2 V c 2 t) (iblk2 V c 3 t) (ix2 p q)
    = G V c (((cfg2.win 4).blk t).view.emb (ix2 p q))
  rw [he]
  refine (Body.pay2_apply _ _ _ _ p q).trans ?_
  rw [blk_1 V c t, blk_2 V c t, blk_3 V c t]
  simp only [read_a V c t p hr]
  rfl

/-- An index of the output is in point t's block iff each coordinate is in the block's range on its axis. -/
theorem mem_blk (t : Fin cfg2.N) (i : S16384x128.Idx) :
    i ∈ ((cfg2.win 4).blk t).view.set ↔ ∀ a : Fin 2, win2_4.index t a * S128x128.size a ≤ (i a).val ∧ (i a).val < win2_4.index t a * S128x128.size a + S128x128.size a := by
  show i ∈ ((View.whole main_v12).slice (win2_4.rect t)).set ↔ _
  rw [View.set_slice_whole, Rect.mem_set_unit]
  exact Iff.rfl

/-- Row r of the output is written by point r / 128. -/
theorem cover (i : S16384x128.Idx) : ∃ t : Fin cfg2.N, (cfg2.win 4).flush t = true ∧ i ∈ ((cfg2.win 4).blk t).view.set := by
  have hi0 : (i 0).val < 16384 := (i 0).isLt
  have hi1 : (i 1).val < 128 := (i 1).isLt
  have hN : cfg2.N = 128 := N_2
  obtain ⟨t, ht⟩ : ∃ t : Fin cfg2.N, t.val = (i 0).val / 128 := ⟨⟨(i 0).val / 128, by rw [hN]; omega⟩, rfl⟩
  obtain ⟨-, -, e0, e1⟩ := idx_rows t
  refine ⟨t, flush2_4 t, ?_⟩
  rw [mem_blk]
  intro a
  match a with
  | ⟨0, _⟩ => show win2_4.index t (0 : Fin 2) * 128 ≤ (i 0).val ∧ (i 0).val < win2_4.index t (0 : Fin 2) * 128 + 128; rw [e0, ht]; omega
  | ⟨1, _⟩ => show win2_4.index t (1 : Fin 2) * 128 ≤ (i 1).val ∧ (i 1).val < win2_4.index t (1 : Fin 2) * 128 + 128; rw [e1]; omega

/-- The output array after the launch: the output layer. -/
theorem final (c : Dev nD) : (dat2 V c).arrAt 4 cfg2.N = G V c :=
  (dat2 V c).arrAt_eq_of_cover 4 (G V c) (fun t _ => flushed_eq V c t) (cover)

end Cert.KernelIdeal.Launch2

end
-- ==== Proof.Chain.lean ====
/-
  The three launches chained: the two results as the specification's layers of the launch memory.

  Before the first launch the host lays each statistics vector out as a one-row matrix; the first launch writes the
  normalised features, which the second reads whole; the second writes the hidden layer twice, and the third reads the
  copy in the shorter format whole. No launch and no host operation writes an argument array, so each launch finds the
  adjacency matrix, the weights and the rows as they were at the start.
-/
import proofs.«128209_j69672959476237_1_alg».proof.Proof.Gen.KernelIdeal.Frame
import proofs.«128209_j69672959476237_1_alg».proof.Proof.Launch0
import proofs.«128209_j69672959476237_1_alg».proof.Proof.Launch1
import proofs.«128209_j69672959476237_1_alg».proof.Proof.Launch2
import Idealize.ShloMosaic.Lib.StableHlo.Run
import Idealize.ShloMosaic.Lib.ValueLayout

set_option maxRecDepth 16384

noncomputable section

namespace Cert.KernelIdeal.Chain

open Cert.KernelIdeal Cert.KernelIdeal.Gen Cert.TwoHop
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The hidden layer of the launch memory's argument arrays. -/
def X2 (c : Dev nD) : S16384x512.Idx → EReal :=
  hidden (m ((c : Thread nD τ).loc main_arg1)) (normed (m ((c : Thread nD τ).loc main_arg0)) (vec (m ((c : Thread nD τ).loc main_arg6))) (vec (m ((c : Thread nD τ).loc main_arg7))) (vec (m ((c : Thread nD τ).loc main_arg8))) (vec (m ((c : Thread nD τ).loc main_arg9)))) (m ((c : Thread nD τ).loc main_arg2)) (vec (m ((c : Thread nD τ).loc main_arg3)))
    (vec (m ((c : Thread nD τ).loc main_arg10))) (vec (m ((c : Thread nD τ).loc main_arg11))) (vec (m ((c : Thread nD τ).loc main_arg12))) (vec (m ((c : Thread nD τ).loc main_arg13)))

/-- The output layer of the launch memory's argument arrays. -/
def X1 (c : Dev nD) : S16384x128.Idx → EReal :=
  output (m ((c : Thread nD τ).loc main_arg1)) (X2 m c) (m ((c : Thread nD τ).loc main_arg4)) (vec (m ((c : Thread nD τ).loc main_arg5)))

/-! ## The first boundary: each statistics vector as a one-row matrix, the arguments as launched -/

theorem V1_v0 (c : Dev nD) : (V1 m ρ c main_v0 : S1x512.Idx → EReal) = shapeCast S1x512 (m ((c : Thread nD τ).loc main_arg6)) shapeCasts_S512_S1x512 := by
  show StableHlo.after hostOps0 (W0 m ρ c) (Proc.devRef .tc main_v0) = _
  after_results; rfl
theorem row_v0 (c : Dev nD) : row (V1 m ρ c main_v0) = vec (m ((c : Thread nD τ).loc main_arg6)) := by
  funext q; unfold row vec; rw [V1_v0]; exact shapeCast_a_1a_apply _ shapeCasts_S512_S1x512 0 q
theorem V1_v1 (c : Dev nD) : (V1 m ρ c main_v1 : S1x512.Idx → EReal) = shapeCast S1x512 (m ((c : Thread nD τ).loc main_arg7)) shapeCasts_S512_S1x512 := by
  show StableHlo.after hostOps0 (W0 m ρ c) (Proc.devRef .tc main_v1) = _
  after_results; rfl
theorem row_v1 (c : Dev nD) : row (V1 m ρ c main_v1) = vec (m ((c : Thread nD τ).loc main_arg7)) := by
  funext q; unfold row vec; rw [V1_v1]; exact shapeCast_a_1a_apply _ shapeCasts_S512_S1x512 0 q
theorem V1_v2 (c : Dev nD) : (V1 m ρ c main_v2 : S1x512.Idx → EReal) = shapeCast S1x512 (m ((c : Thread nD τ).loc main_arg8)) shapeCasts_S512_S1x512 := by
  show StableHlo.after hostOps0 (W0 m ρ c) (Proc.devRef .tc main_v2) = _
  after_results; rfl
theorem row_v2 (c : Dev nD) : row (V1 m ρ c main_v2) = vec (m ((c : Thread nD τ).loc main_arg8)) := by
  funext q; unfold row vec; rw [V1_v2]; exact shapeCast_a_1a_apply _ shapeCasts_S512_S1x512 0 q
theorem V1_v3 (c : Dev nD) : (V1 m ρ c main_v3 : S1x512.Idx → EReal) = shapeCast S1x512 (m ((c : Thread nD τ).loc main_arg9)) shapeCasts_S512_S1x512 := by
  show StableHlo.after hostOps0 (W0 m ρ c) (Proc.devRef .tc main_v3) = _
  after_results; rfl
theorem row_v3 (c : Dev nD) : row (V1 m ρ c main_v3) = vec (m ((c : Thread nD τ).loc main_arg9)) := by
  funext q; unfold row vec; rw [V1_v3]; exact shapeCast_a_1a_apply _ shapeCasts_S512_S1x512 0 q
theorem V1_v4 (c : Dev nD) : (V1 m ρ c main_v4 : S1x512.Idx → EReal) = shapeCast S1x512 (m ((c : Thread nD τ).loc main_arg10)) shapeCasts_S512_S1x512 := by
  show StableHlo.after hostOps0 (W0 m ρ c) (Proc.devRef .tc main_v4) = _
  after_results; rfl
theorem row_v4 (c : Dev nD) : row (V1 m ρ c main_v4) = vec (m ((c : Thread nD τ).loc main_arg10)) := by
  funext q; unfold row vec; rw [V1_v4]; exact shapeCast_a_1a_apply _ shapeCasts_S512_S1x512 0 q
theorem V1_v5 (c : Dev nD) : (V1 m ρ c main_v5 : S1x512.Idx → EReal) = shapeCast S1x512 (m ((c : Thread nD τ).loc main_arg11)) shapeCasts_S512_S1x512 := by
  show StableHlo.after hostOps0 (W0 m ρ c) (Proc.devRef .tc main_v5) = _
  after_results; rfl
theorem row_v5 (c : Dev nD) : row (V1 m ρ c main_v5) = vec (m ((c : Thread nD τ).loc main_arg11)) := by
  funext q; unfold row vec; rw [V1_v5]; exact shapeCast_a_1a_apply _ shapeCasts_S512_S1x512 0 q
theorem V1_v6 (c : Dev nD) : (V1 m ρ c main_v6 : S1x512.Idx → EReal) = shapeCast S1x512 (m ((c : Thread nD τ).loc main_arg12)) shapeCasts_S512_S1x512 := by
  show StableHlo.after hostOps0 (W0 m ρ c) (Proc.devRef .tc main_v6) = _
  after_results; rfl
theorem row_v6 (c : Dev nD) : row (V1 m ρ c main_v6) = vec (m ((c : Thread nD τ).loc main_arg12)) := by
  funext q; unfold row vec; rw [V1_v6]; exact shapeCast_a_1a_apply _ shapeCasts_S512_S1x512 0 q
theorem V1_v7 (c : Dev nD) : (V1 m ρ c main_v7 : S1x512.Idx → EReal) = shapeCast S1x512 (m ((c : Thread nD τ).loc main_arg13)) shapeCasts_S512_S1x512 := by
  show StableHlo.after hostOps0 (W0 m ρ c) (Proc.devRef .tc main_v7) = _
  after_results; rfl
theorem row_v7 (c : Dev nD) : row (V1 m ρ c main_v7) = vec (m ((c : Thread nD τ).loc main_arg13)) := by
  funext q; unfold row vec; rw [V1_v7]; exact shapeCast_a_1a_apply _ shapeCasts_S512_S1x512 0 q
theorem V1_v8 (c : Dev nD) : (V1 m ρ c main_v8 : S1x512.Idx → EReal) = shapeCast S1x512 (m ((c : Thread nD τ).loc main_arg3)) shapeCasts_S512_S1x512 := by
  show StableHlo.after hostOps0 (W0 m ρ c) (Proc.devRef .tc main_v8) = _
  after_results; rfl
theorem row_v8 (c : Dev nD) : row (V1 m ρ c main_v8) = vec (m ((c : Thread nD τ).loc main_arg3)) := by
  funext q; unfold row vec; rw [V1_v8]; exact shapeCast_a_1a_apply _ shapeCasts_S512_S1x512 0 q
theorem V1_v9 (c : Dev nD) : (V1 m ρ c main_v9 : S1x128.Idx → EReal) = shapeCast S1x128 (m ((c : Thread nD τ).loc main_arg5)) shapeCasts_S128_S1x128 := by
  show StableHlo.after hostOps0 (W0 m ρ c) (Proc.devRef .tc main_v9) = _
  after_results; rfl
theorem row_v9 (c : Dev nD) : row (V1 m ρ c main_v9) = vec (m ((c : Thread nD τ).loc main_arg5)) := by
  funext q; unfold row vec; rw [V1_v9]; exact shapeCast_a_1a_apply _ shapeCasts_S128_S1x128 0 q

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg4 (c : Dev nD) : V1 m ρ c main_arg4 = m ((c : Thread nD τ).loc main_arg4) := by
  show StableHlo.after hostOps0 (W0 m ρ c) (Proc.devRef .tc main_arg4) = _
  after_results

/-! ## The second boundary: the first launch's output, everything else as it was -/

theorem V2_v10 (c : Dev nD) : V2 m ρ c main_v10 = Launch0.G (V1 m ρ) c :=
  (hF0 m ρ c 5).symm.trans (Launch0.final (V1 m ρ) c)

theorem G0_eq (c : Dev nD) :
    Launch0.G (V1 m ρ) c = normed (m ((c : Thread nD τ).loc main_arg0)) (vec (m ((c : Thread nD τ).loc main_arg6))) (vec (m ((c : Thread nD τ).loc main_arg7))) (vec (m ((c : Thread nD τ).loc main_arg8))) (vec (m ((c : Thread nD τ).loc main_arg9))) := by
  unfold Launch0.G
  rw [V1_arg0, row_v0, row_v1, row_v2, row_v3]

/-! ## The third boundary: the second launch's two outputs -/

theorem G1_eq (c : Dev nD) : Launch1.G (V2 m ρ) c = X2 m c := by
  unfold Launch1.G X2
  rw [V2_v10, G0_eq,
    hrest0 m ρ c main_arg1 (by decide), hrest0 m ρ c main_arg2 (by decide), hrest0 m ρ c main_v8 (by decide),
    hrest0 m ρ c main_v4 (by decide), hrest0 m ρ c main_v5 (by decide), hrest0 m ρ c main_v6 (by decide),
    hrest0 m ρ c main_v7 (by decide),
    V1_arg1, V1_arg2, row_v8, row_v4, row_v5, row_v6, row_v7]

theorem V3_v11_0 (c : Dev nD) : V3 m ρ c main_v11_0 = X2 m c :=
  ((hF1 m ρ c 8).symm.trans (Launch1.final8 (V2 m ρ) c)).trans (G1_eq m ρ c)

theorem V3_v11_1 (c : Dev nD) : V3 m ρ c main_v11_1 = X2 m c :=
  ((hF1 m ρ c 9).symm.trans (Launch1.final9 (V2 m ρ) c)).trans (G1_eq m ρ c)

/-- The second launch only reads the adjacency matrix. -/
theorem V3_arg1 (c : Dev nD) : V3 m ρ c main_arg1 = (m ((c : Thread nD τ).loc main_arg1)) :=
  ((hF1 m ρ c 0).symm.trans (((dat1 (V2 m ρ) c).arrAt_in 0 rfl _).trans (A_eq1 (V2 m ρ) c 0))).trans
    ((hrest0 m ρ c main_arg1 (by decide)).trans (V1_arg1 m ρ c))

theorem V3_arg4 (c : Dev nD) : V3 m ρ c main_arg4 = (m ((c : Thread nD τ).loc main_arg4)) :=
  (hrest1 m ρ c main_arg4 (by decide)).trans ((hrest0 m ρ c main_arg4 (by decide)).trans (V1_arg4 m ρ c))

theorem V3_v9 (c : Dev nD) : V3 m ρ c main_v9 = V1 m ρ c main_v9 :=
  (hrest1 m ρ c main_v9 (by decide)).trans (hrest0 m ρ c main_v9 (by decide))

/-! ## The last boundary: the two results -/

/-- The second result, which the third launch does not touch, is the hidden layer. -/
theorem result_hidden (c : Dev nD) : W4 m ρ c (Proc.devRef .tc main_v11_0) = X2 m c :=
  (hrest2 m ρ c main_v11_0 (by decide)).trans (V3_v11_0 m ρ c)

/-- The first result is the output layer. -/
theorem result_output (c : Dev nD) : W4 m ρ c (Proc.devRef .tc main_v12) = X1 m c := by
  refine ((hF2 m ρ c 4).symm.trans (Launch2.final (V3 m ρ) c)).trans ?_
  unfold Launch2.G X1
  rw [V3_v11_1, V3_arg1, V3_arg4, V3_v9, row_v9]

end Cert.KernelIdeal.Chain

end
-- ==== Proof.RefSide.lean ====
/-
  The reference program's two results are the specification's two layers of the argument arrays.

  Its host operations come in three groups, each read at one entry: a normalisation (subtract the broadcast mean,
  multiply with the broadcast inverse root of variance plus ε, with the broadcast scale, add the broadcast shift); an
  aggregation followed by a linear map (two plain matrix products, the inner one a sum over all nodes, then the
  broadcast bias); and the rectifier (the maximum with a broadcast zero).
-/
import proofs.«128209_j69672959476237_1_alg».proof.Proof.Gen.ReferenceIdeal.Read
import proofs.«128209_j69672959476237_1_alg».proof.Proof.Spec
import proofs.«128209_j69672959476237_1_alg».proof.Proof.LibDense

noncomputable section

namespace Cert.ReferenceIdeal.RefValue

open Cert.ReferenceIdeal Cert.ReferenceIdeal.Gen Idealize.ShloMosaic Idealize.ShloMosaic.ValueIdx Cert.TwoHop

/-- The host's ε added to a variance vector, read at a column. -/
theorem eps_bcast_apply (i : S512.Idx) :
    broadcastInDim S512 ![] bcast_S_S512 (constant (F := Ideal) S_ .f32 0x3727C5AC#32) i = eps :=
  Cert.Dense.bcastScalar_apply _ _ i

/-- A vector laid out as a row and repeated down all 16384 rows reads, at (r, f), the vector at f. -/
theorem spread512 (u : FVec Ideal S512 .f32) (r : Fin 16384) (f : Fin 512) :
    broadcastInDim S16384x512 ![0, 1] bcast_S1x512_S16384x512_0_1 (broadcastInDim S1x512 ![1] bcast_S512_S1x512_1 u) (ix2 r f)
      = u (ix1 f) :=
  (Cert.Dense.bcastRows_apply _ bcast_S1x512_S16384x512_0_1 r f).trans (Cert.Dense.bcastRow_apply u bcast_S512_S1x512_1 0 f)

/-- The same for a vector of 128 entries. -/
theorem spread128 (u : FVec Ideal S128 .f32) (r : Fin 16384) (q : Fin 128) :
    broadcastInDim S16384x128 ![0, 1] bcast_S1x128_S16384x128_0_1 (broadcastInDim S1x128 ![1] bcast_S128_S1x128_1 u) (ix2 r q)
      = u (ix1 q) :=
  (Cert.Dense.bcastRows_apply _ bcast_S1x128_S16384x128_0_1 r q).trans (Cert.Dense.bcastRow_apply u bcast_S128_S1x128_1 0 q)

/-- The host's normalisation of a 16384×512 matrix is the specification's, column statistics read off the vectors. -/
theorem ref_norm (v : FVec Ideal S16384x512 .f32) (rm rv g b : FVec Ideal S512 .f32) :
    addf (mulf (mulf (subf v (broadcastInDim S16384x512 ![0, 1] bcast_S1x512_S16384x512_0_1 (broadcastInDim S1x512 ![1] bcast_S512_S1x512_1 rm)))
        (broadcastInDim S16384x512 ![0, 1] bcast_S1x512_S16384x512_0_1 (broadcastInDim S1x512 ![1] bcast_S512_S1x512_1
          (Host.rsqrt (addf rv (broadcastInDim S512 ![] bcast_S_S512 (constant (F := Ideal) S_ .f32 0x3727C5AC#32)))))))
        (broadcastInDim S16384x512 ![0, 1] bcast_S1x512_S16384x512_0_1 (broadcastInDim S1x512 ![1] bcast_S512_S1x512_1 g)))
      (broadcastInDim S16384x512 ![0, 1] bcast_S1x512_S16384x512_0_1 (broadcastInDim S1x512 ![1] bcast_S512_S1x512_1 b))
    = normed v (vec g) (vec b) (vec rm) (vec rv) := by
  funext i
  obtain ⟨r, f, rfl⟩ : ∃ (r : Fin 16384) (f : Fin 512), i = ix2 r f := ⟨i 0, i 1, eq_ix2 i⟩
  rw [normed_apply]
  simp only [addf_apply, mulf_apply, subf_apply]
  have hr : (Host.rsqrt (addf rv (broadcastInDim S512 ![] bcast_S_S512 (constant (F := Ideal) S_ .f32 0x3727C5AC#32))) : FVec Ideal S512 .f32) (ix1 f)
      = Ideal.rsqrt (rv (ix1 f) + eps) := by
    show Ideal.rsqrt (rv (ix1 f) + broadcastInDim S512 ![] bcast_S_S512 (constant (F := Ideal) S_ .f32 0x3727C5AC#32) (ix1 f)) = _
    rw [eps_bcast_apply]
  rw [spread512 rm r f, spread512 g r f, spread512 b r f,
    spread512 (Host.rsqrt (addf rv (broadcastInDim S512 ![] bcast_S_S512 (constant (F := Ideal) S_ .f32 0x3727C5AC#32)))) r f, hr]
  rfl

/-- The host's rectifier at an entry. -/
theorem ref_relu (v : FVec Ideal S16384x512 .f32) :
    maximumf v (broadcastInDim S16384x512 ![] bcast_S_S16384x512 (constant (F := Ideal) S_ .f32 0x00000000#32))
      = fun i => max (v i) zero := by
  funext i
  rw [maximumf_apply, Cert.Dense.bcastScalar_apply]
  rfl

/-- The adjacency matrix times a feature matrix, at (r, k): the sum over all nodes. -/
theorem ref_aggregate (a : FVec Ideal S16384x16384 .f32) (y : FVec Ideal S16384x512 .f32) (r : Fin 16384) (k : Fin 512) :
    Host.dotGeneral (F := Ideal) dot_S16384x16384_S16384x512_S16384x512_1_0_0_1_n_n none a y (ix2 r k)
      = ∑ j : Fin 16384, a (ix2 r j) * y (ix2 j k) := by
  unfold dot_S16384x16384_S16384x512_S16384x512_1_0_0_1_n_n
  rw [Cert.Dense.hostDot_plain_apply]

/-- Aggregation, the 512×512 linear map and its bias, as the host computes them. -/
theorem ref_hop512 (a : FVec Ideal S16384x16384 .f32) (y : FVec Ideal S16384x512 .f32) (w : FVec Ideal S512x512 .f32) (b : FVec Ideal S512 .f32) :
    addf (Host.dotGeneral (F := Ideal) dot_S16384x512_S512x512_S16384x512_1_0_0_1_n_n none
        (Host.dotGeneral (F := Ideal) dot_S16384x16384_S16384x512_S16384x512_1_0_0_1_n_n none a y) w)
      (broadcastInDim S16384x512 ![0, 1] bcast_S1x512_S16384x512_0_1 (broadcastInDim S1x512 ![1] bcast_S512_S1x512_1 b))
    = fun i => hop a y w (vec b) (i 0) (i 1) := by
  funext i
  obtain ⟨r, q, rfl⟩ : ∃ (r : Fin 16384) (q : Fin 512), i = ix2 r q := ⟨i 0, i 1, eq_ix2 i⟩
  rw [addf_apply, spread512 b r q]
  unfold dot_S16384x512_S512x512_S16384x512_1_0_0_1_n_n
  rw [Cert.Dense.hostDot_plain_apply]
  simp only [ref_aggregate]
  rfl

/-- Aggregation, the 512×128 linear map and its bias, as the host computes them. -/
theorem ref_hop128 (a : FVec Ideal S16384x16384 .f32) (y : FVec Ideal S16384x512 .f32) (w : FVec Ideal S512x128 .f32) (b : FVec Ideal S128 .f32) :
    addf (Host.dotGeneral (F := Ideal) dot_S16384x512_S512x128_S16384x128_1_0_0_1_n_n none
        (Host.dotGeneral (F := Ideal) dot_S16384x16384_S16384x512_S16384x512_1_0_0_1_n_n none a y) w)
      (broadcastInDim S16384x128 ![0, 1] bcast_S1x128_S16384x128_0_1 (broadcastInDim S1x128 ![1] bcast_S128_S1x128_1 b))
    = output a y w (vec b) := by
  funext i
  obtain ⟨r, q, rfl⟩ : ∃ (r : Fin 16384) (q : Fin 128), i = ix2 r q := ⟨i 0, i 1, eq_ix2 i⟩
  rw [output_apply, addf_apply, spread128 b r q]
  unfold dot_S16384x512_S512x128_S16384x128_1_0_0_1_n_n
  rw [Cert.Dense.hostDot_plain_apply]
  simp only [ref_aggregate]
  rfl

/-- The reference's second result is the hidden layer of its arguments. -/
theorem ref_hidden (x0 : FVec Ideal S16384x512 .f32) (x1 : FVec Ideal S16384x16384 .f32) (x2 : FVec Ideal S512x512 .f32)
    (x3 x6 x7 x8 x9 x10 x11 x12 x13 : FVec Ideal S512 .f32) :
    Read.val_main_v35 (F := Ideal) x0 x1 x2 x3 x6 x7 x8 x9 x10 x11 x12 x13
      = hidden x1 (normed x0 (vec x6) (vec x7) (vec x8) (vec x9)) x2 (vec x3) (vec x10) (vec x11) (vec x12) (vec x13) := by
  simp only [Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_cst_0, Read.val_main_v20, Read.val_main_call0_v0, Read.val_main_call0_cst, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst]
  rw [ref_norm, ref_relu, ref_hop512, ref_norm]
  rfl

/-- The reference's first result is the output layer over that hidden layer. -/
theorem ref_output (x0 : FVec Ideal S16384x512 .f32) (x1 : FVec Ideal S16384x16384 .f32) (x2 : FVec Ideal S512x512 .f32)
    (x3 : FVec Ideal S512 .f32) (x4 : FVec Ideal S512x128 .f32) (x5 : FVec Ideal S128 .f32)
    (x6 x7 x8 x9 x10 x11 x12 x13 : FVec Ideal S512 .f32) :
    Read.val_main_v40 (F := Ideal) x0 x1 x2 x3 x4 x5 x6 x7 x8 x9 x10 x11 x12 x13
      = output x1 (hidden x1 (normed x0 (vec x6) (vec x7) (vec x8) (vec x9)) x2 (vec x3) (vec x10) (vec x11) (vec x12) (vec x13))
          x4 (vec x5) := by
  simp only [Read.val_main_v40, Read.val_main_v39, Read.val_main_v38, Read.val_main_v37, Read.val_main_v36]
  rw [ref_hidden, ref_hop128]

end Cert.ReferenceIdeal.RefValue

end
-- ==== Proof.lean ====
/-
  A two-layer graph network over a dense adjacency matrix A: the kernel computes it in three launches, the reference
  in one host program, and at the ideal values both compute, entry by entry,
      X₂ = norm₂ (max ((A · norm₁ X) · W₁ + b₁, 0))   and   X₁ = (A · X₂) · W₂ + b₂ ,
  where norm subtracts a column's running mean, multiplies with (running variance + ε)^(-1/2) and the scale, and adds
  the shift, and where a change of storage format is the identity.

  Both programs form every sum over the same index set in one piece (all 16384 nodes for A · Y, all 512 hidden units
  for the linear maps), apply the same operations in the same order and use the same binary word for ε, so the two
  results are the same terms of the arguments: no law of the extended reals beyond reading each operation at an entry
  is used, and the finiteness of the inputs is never opened.

  The kernel side: each launch's output array is one whole-array function of the arrays the launch found (its blocks
  tile the output, and the block a grid point writes is that block of the function); the launches are chained through
  the buffer contents at their boundaries. The reference side: its run's term is read one group of host operations at
  a time. The kernel's idealization rewrote no operation, so there is nothing to preserve.
-/
import proofs.«128209_j69672959476237_1_alg».proof.Defs
import proofs.«128209_j69672959476237_1_alg».proof.Proof.Gen.Kernel
import proofs.«128209_j69672959476237_1_alg».proof.Proof.Gen.Kernel.Frame
import proofs.«128209_j69672959476237_1_alg».proof.Proof.Gen.KernelIdeal
import proofs.«128209_j69672959476237_1_alg».proof.Proof.Gen.KernelIdeal.Frame
import proofs.«128209_j69672959476237_1_alg».proof.Proof.Gen.ReferenceIdeal
import proofs.«128209_j69672959476237_1_alg».proof.Proof.Gen.Pre_finite_inputs
import proofs.«128209_j69672959476237_1_alg».proof.Proof.Gen.ReferenceIdeal.Run
import proofs.«128209_j69672959476237_1_alg».proof.Proof.Gen.ReferenceIdeal.Read
import proofs.«128209_j69672959476237_1_alg».proof.Proof.KernelRun
import proofs.«128209_j69672959476237_1_alg».proof.Proof.Chain
import proofs.«128209_j69672959476237_1_alg».proof.Proof.RefSide
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealized kernel's run: the first result ends at the output layer and the second at the hidden layer of the
    argument arrays, which end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v12) = Cert.KernelIdeal.Chain.X1 m c
      ∧ r.2.mem ((c.tc : Thread Cert.KernelIdeal.nD Cert.KernelIdeal.τ).loc Cert.KernelIdeal.main_v11_0) = Cert.KernelIdeal.Chain.X2 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨(h c _ Cert.KernelIdeal.Run.v12_mem).trans (Cert.KernelIdeal.Chain.result_output m ρ c),
      (h c _ Cert.KernelIdeal.Run.v11_0_mem).trans (Cert.KernelIdeal.Chain.result_hidden m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c),
      (h c _ (Cert.KernelIdeal.Gen.mem_uc Cert.KernelIdeal.main_arg8 (by decide))).trans (Cert.KernelIdeal.Gen.W4_main_arg8 m ρ c),
      (h c _ (Cert.KernelIdeal.Gen.mem_uc Cert.KernelIdeal.main_arg9 (by decide))).trans (Cert.KernelIdeal.Gen.W4_main_arg9 m ρ c),
      (h c _ (Cert.KernelIdeal.Gen.mem_uc Cert.KernelIdeal.main_arg10 (by decide))).trans (Cert.KernelIdeal.Gen.W4_main_arg10 m ρ c),
      (h c _ (Cert.KernelIdeal.Gen.mem_uc Cert.KernelIdeal.main_arg11 (by decide))).trans (Cert.KernelIdeal.Gen.W4_main_arg11 m ρ c),
      (h c _ (Cert.KernelIdeal.Gen.mem_uc Cert.KernelIdeal.main_arg12 (by decide))).trans (Cert.KernelIdeal.Gen.W4_main_arg12 m ρ c),
      (h c _ (Cert.KernelIdeal.Gen.mem_uc Cert.KernelIdeal.main_arg13 (by decide))).trans (Cert.KernelIdeal.Gen.W4_main_arg13 m ρ c)⟩)
    (Cert.KernelIdeal.Run.run_all m ρ)

/-- Both programs end with the output layer and the hidden layer of arguments that agree. -/
theorem algebraic : Cert.algebraic_KernelIdeal_ReferenceIdeal := by
  intro m ρ m' ρ' _ hagree
  refine ⟨fun c => Cert.KernelIdeal.Chain.X1 m c, fun c => Cert.KernelIdeal.Chain.X2 m c, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13⟩ := hagree c
    rw [Cert.ReferenceIdeal.Read.val_main_v40_eq, Cert.ReferenceIdeal.RefValue.ref_output,
      e0, e1, e2, e3, e4, e5, e6, e7, e8, e9, e10, e11, e12, e13]
    rfl
  · obtain ⟨e0, e1, e2, e3, e4, e5, e6, e7, e8, e9, e10, e11, e12, e13⟩ := hagree c
    rw [Cert.ReferenceIdeal.Read.val_main_v35_eq, Cert.ReferenceIdeal.RefValue.ref_hidden,
      e0, e1, e2, e3, e6, e7, e8, e9, e10, e11, e12, e13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
